-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S512x256 : Shape := ⟨2, ![512, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x256 .f32) (main_arg3 : FVec F S512x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S512x256 : Shape := ⟨2, ![512, 256]⟩
abbrev S400x10000 : Shape := ⟨2, ![400, 10000]⟩
abbrev S400x256 : Shape := ⟨2, ![400, 256]⟩
abbrev S400 : Shape := ⟨1, ![400]⟩
abbrev S400x1 : Shape := ⟨2, ![400, 1]⟩

abbrev nBuf : Space → Nat
  | .hbm => 5
  | .vmem => 8
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S512x256, .f32⟩
  | .hbm, ⟨4, _⟩ => ⟨S10000x256, .f32⟩
  | .local _ .vmem, ⟨0, _⟩ => ⟨S400x10000, .f32⟩
  | .local _ .vmem, ⟨1, _⟩ => ⟨S400x10000, .f32⟩
  | .local _ .vmem, ⟨2, _⟩ => ⟨S10000x256, .f32⟩
  | .local _ .vmem, ⟨3, _⟩ => ⟨S256x256, .f32⟩
  | .local _ .vmem, ⟨4, _⟩ => ⟨S512x256, .f32⟩
  | .local _ .vmem, ⟨5, _⟩ => ⟨S400x256, .f32⟩
  | .local _ .vmem, ⟨6, _⟩ => ⟨S400x256, .f32⟩
  | .local _ .vmem, ⟨7, _⟩ => ⟨S10000x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v9 : BitVec 32 := Scalar.muli arg0 c400_i32
  let v10 : Index := Scalar.indexCast v9
  let c0_7 : Index := 0#32
  ![v10.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  inb_S256x256_S256x256_0_0 : ∀ a, (![0, 0] : Fin 2 → Nat) a + S256x256.size a ≤ S256x256.size a
  h_S256x256 : 0 < S256x256.numel
  h_S400x256 : 0 < S400x256.numel
  inb_S512x256_S256x256_0_0 : ∀ a, (![0, 0] : Fin 2 → Nat) a + S256x256.size a ≤ S512x256.size a
  inb_S512x256_S256x256_256_0 : ∀ a, (![256, 0] : Fin 2 → Nat) a + S256x256.size a ≤ S512x256.size a
  reduces_S400x256_S400 : S400x256.Reduces [1] S400
  shapeCasts_S400_S400x1 : S400.ShapeCasts S400x1
  broadcasts_S400x1_S400x256 : S400x1.Broadcasts S400x256
  inb_S400x256_S400x256_0_0 : ∀ a, (![0, 0] : Fin 2 → Nat) a + S400x256.size a ≤ S400x256.size a
  dot_S400x10000_S10000x256_S400x256_1_0_0_1_n_n_wf : DotDims.WF S400x10000 S10000x256 S400x256 [1] [0] [0] [1] [] []
  dot_S400x256_S256x256_S400x256_1_0_0_1_n_n_wf : DotDims.WF S400x256 S256x256 S400x256 [1] [0] [0] [1] [] []
  hrank0 : 0 < grid0.rank
  k0_off1_inb : ∀ i : grid0.Coords, ∀ a, (k0_off1 i) a + S400x256.size a ≤ S10000x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x256.size a ≤ S10000x256.size a
  hwx0_1 : ∀ i : grid0.Coords, EltTy.bits .f32 = 32 ∨ (Rect.block (s := S10000x256) S10000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x256.size a ≤ S10000x256.size a
  hwx0_4 : ∀ i : grid0.Coords, EltTy.bits .f32 = 32 ∨ (Rect.block (s := S10000x256) S400x256.size (cc0_transform_4 i) (hinb0_4 i)).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S512x256 : Shape := ⟨2, ![512, 256]⟩
abbrev S10000x512 : Shape := ⟨2, ![10000, 512]⟩
abbrev S_ : Shape := ⟨0, ![]⟩
abbrev S10000 : Shape := ⟨1, ![10000]⟩
abbrev S10000x1 : Shape := ⟨2, ![10000, 1]⟩

abbrev nBuf : Space → Nat
  | .hbm => 21
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S512x256, .f32⟩
  | .hbm, ⟨4, _⟩ => ⟨S10000x256, .f32⟩
  | .hbm, ⟨5, _⟩ => ⟨S10000x256, .f32⟩
  | .hbm, ⟨6, _⟩ => ⟨S10000x512, .f32⟩
  | .hbm, ⟨7, _⟩ => ⟨S10000x256, .f32⟩
  | .hbm, ⟨8, _⟩ => ⟨S_, .f32⟩
  | .hbm, ⟨9, _⟩ => ⟨S10000x256, .f32⟩
  | .hbm, ⟨10, _⟩ => ⟨S10000x256, .f32⟩
  | .hbm, ⟨11, _⟩ => ⟨S10000x256, .f32⟩
  | .hbm, ⟨12, _⟩ => ⟨S_, .f32⟩
  | .hbm, ⟨13, _⟩ => ⟨S10000, .f32⟩
  | .hbm, ⟨14, _⟩ => ⟨S10000x1, .f32⟩
  | .hbm, ⟨15, _⟩ => ⟨S10000x1, .f32⟩
  | .hbm, ⟨16, _⟩ => ⟨S_, .f32⟩
  | .hbm, ⟨17, _⟩ => ⟨S10000x1, .f32⟩
  | .hbm, ⟨18, _⟩ => ⟨S10000x1, .f32⟩
  | .hbm, ⟨19, _⟩ => ⟨S10000x256, .f32⟩
  | .hbm, ⟨20, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  concatenates_S10000x256_S10000x256_S10000x512_d1 : Shape.Concatenates [S10000x256, S10000x256] S10000x512 1
  bcast_S_S10000x256 : S_.BroadcastsInDim S10000x256 (![] : Fin 0 → Fin S10000x256.rank)
  reducesTo_S10000x256_S10000_d1 : S10000x256.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  dot_S10000x10000_S10000x256_S10000x256_1_0_0_1_n_n_wf : DotDims.WF S10000x10000 S10000x256 S10000x256 [1] [0] [0] [1] [] []
  dot_S10000x256_S256x256_S10000x256_1_0_0_1_n_n_wf : DotDims.WF S10000x256 S256x256 S10000x256 [1] [0] [0] [1] [] []
  dot_S10000x512_S512x256_S10000x256_1_0_0_1_n_n_wf : DotDims.WF S10000x512 S512x256 S10000x256 [1] [0] [0] [1] [] []

variable [Facts₀]

def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.Cases.lean ====
/-
  What each of the body's two control cases leaves behind, as values of what the body loaded.

  At the grid's first point the body first copies all of `feat` (changing its float format) into the scratch buffer
  it keeps across the grid; at every point it then stores ONE block of 400 result rows, computed from the point's block
  of `sup`, the scratch, `agg_wei`, the point's own 400 rows of `feat` (read out of the whole array at row offset
  400 · point) and the two halves of `cat_wei` (rows 0–255 and rows 256–511). So:
    first point :  scratch := pay1 feat ;  block := pay2 sup_blk (pay1 feat) agg_wei feat_rows cat_lo cat_hi
    later points:  scratch unchanged     ;  block := pay2 sup_blk scratch     agg_wei feat_rows cat_lo cat_hi.
  Each is the one covering store's payload with its loads read back: a load of a whole buffer reads its contents, a load
  of the scratch right after the store into it reads what was stored.
-/
import proofs.«145825_g76141180224220_cont_sun_c4_842_3_alg».proof.Proof.Gen.KernelIdeal.Frame
import Idealize.ShloMosaic.Lib.Pipeline.Value
import Idealize.ShloMosaic.Lib.Tactic

set_option maxRecDepth 16384

noncomputable section

namespace Cert.KernelIdeal.Cases

open Cert.KernelIdeal Cert.KernelIdeal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The point's own 400 rows of `feat`, read out of the whole array at the row offset the body computes. -/
abbrev featRows (i : grid0.Coords) (x1 : Vec F S10000x256 .f32) : Vec F S400x256 .f32 :=
  View.ld (Val := Elt F) x1 (Rect.unit (s := S10000x256) (k0_off1 i) S400x256.size (k0_off1_inb i))

/-- Rows 0–255 of `cat_wei`. -/
abbrev catLo (x3 : Vec F S512x256 .f32) : Vec F S256x256 .f32 :=
  View.ld (Val := Elt F) x3 (Rect.unit (s := S512x256) ![0, 0] S256x256.size inb_S512x256_S256x256_0_0)

/-- Rows 256–511 of `cat_wei`. -/
abbrev catHi (x3 : Vec F S512x256 .f32) : Vec F S256x256 .f32 :=
  View.ld (Val := Elt F) x3 (Rect.unit (s := S512x256) ![256, 0] S256x256.size inb_S512x256_S256x256_256_0)

/-- A LATER POINT's block: the payload over the scratch as the point before left it. -/
theorem out_B (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S400x256 .f32) (harg5 : arg5.IsWhole) (arg6 : Memref sig .tc .vmem S10000x256 .bf16) (harg6 : arg6.IsWhole) (hc0 : ¬cond0_0 i)
    (x0 : Vec F S400x10000 .f32) (x1 : Vec F S10000x256 .f32) (x2 : Vec F S256x256 .f32) (x3 : Vec F S512x256 .f32) (xs0 : Vec F S10000x256 .bf16) :
    out0_B_4 c i arg1 harg1 arg2 harg2 arg3 harg3 arg4 harg4 arg5 harg5 arg6 harg6 hc0 x0 x1 x2 x3 xs0 = k0_pay2 x0 xs0 x2 (featRows i x1) (catLo x3) (catHi x3) := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  rw [View.canon_unit_zero hz]
  simp only [View.readAt_eq_ld, harg1.read_unread, harg2.read_unread, harg3.read_unread, harg4.read_unread, harg6.read_unread,
    View.ld_unit_zero (S := S400x10000) hz, View.ld_unit_zero (S := S10000x256) hz, View.ld_unit_zero (S := S256x256) hz]

/-- A LATER POINT leaves the scratch as it found it. -/
theorem sout_B (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S400x256 .f32) (harg5 : arg5.IsWhole) (arg6 : Memref sig .tc .vmem S10000x256 .bf16) (harg6 : arg6.IsWhole) (hc0 : ¬cond0_0 i)
    (x0 : Vec F S400x10000 .f32) (x1 : Vec F S10000x256 .f32) (x2 : Vec F S256x256 .f32) (x3 : Vec F S512x256 .f32) (xs0 : Vec F S10000x256 .bf16) :
    sout0_B_0 c i arg1 harg1 arg2 harg2 arg3 harg3 arg4 harg4 arg5 harg5 arg6 harg6 hc0 x0 x1 x2 x3 xs0 = xs0 := rfl

/-- THE FIRST POINT's scratch: all of `feat` through the scratch's payload. -/
theorem sout_A (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S400x256 .f32) (harg5 : arg5.IsWhole) (arg6 : Memref sig .tc .vmem S10000x256 .bf16) (harg6 : arg6.IsWhole) (hc0 : cond0_0 i)
    (x0 : Vec F S400x10000 .f32) (x1 : Vec F S10000x256 .f32) (x2 : Vec F S256x256 .f32) (x3 : Vec F S512x256 .f32) :
    sout0_A_0 c i arg1 harg1 arg2 harg2 arg3 harg3 arg4 harg4 arg5 harg5 arg6 harg6 hc0 x0 x1 x2 x3 = k0_pay1 x1 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero (S := S10000x256) hz]
  simp only [View.readAt_eq_ld, harg2.read_unread, View.ld_unit_zero (S := S10000x256) hz]

/-- THE FIRST POINT's block: the payload over the scratch it has just stored. -/
theorem out_A (c : Dev nD) (i : grid0.Coords) (arg1 : Memref sig .tc .vmem S400x10000 .f32) (harg1 : arg1.IsWhole) (arg2 : Memref sig .tc .vmem S10000x256 .f32) (harg2 : arg2.IsWhole) (arg3 : Memref sig .tc .vmem S256x256 .f32) (harg3 : arg3.IsWhole) (arg4 : Memref sig .tc .vmem S512x256 .f32) (harg4 : arg4.IsWhole) (arg5 : Memref sig .tc .vmem S400x256 .f32) (harg5 : arg5.IsWhole) (arg6 : Memref sig .tc .vmem S10000x256 .bf16) (harg6 : arg6.IsWhole) (hc0 : cond0_0 i)
    (x0 : Vec F S400x10000 .f32) (x1 : Vec F S10000x256 .f32) (x2 : Vec F S256x256 .f32) (x3 : Vec F S512x256 .f32) :
    out0_A_4 c i arg1 harg1 arg2 harg2 arg3 harg3 arg4 harg4 arg5 harg5 arg6 harg6 hc0 x0 x1 x2 x3 = k0_pay2 x0 (k0_pay1 x1) x2 (featRows i x1) (catLo x3) (catHi x3) := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero hz, View.readCov_unit_zero (S := S10000x256) _ hz]
  simp only [View.readAt_eq_ld, harg1.read_unread, harg2.read_unread, harg3.read_unread, harg4.read_unread,
    View.ld_unit_zero (S := S400x10000) hz, View.ld_unit_zero (S := S10000x256) hz, View.ld_unit_zero (S := S256x256) hz]
  rfl

end Cert.KernelIdeal.Cases

end
-- ==== Proof.Staged.lean ====
/-
  Each window's staged block, read where it lies in its array.

  Grid point `t` (of 25) stages rows `400 t … 400 t + 399` of `sup`; `feat`, `agg_wei` and `cat_wei` are staged whole
  at every point (their block index never moves); the output block of point `t` is rows `400 t … 400 t + 399` of the result.
  A block's entry at an index is the array's entry at (block index × block size + the index inside the block), axis
  by axis.
-/
import proofs.«145825_g76141180224220_cont_sun_c4_842_3_alg».proof.Proof.Gen.KernelIdeal.Frame
import Idealize.ShloMosaic.Lib.Pipeline.Value
import Idealize.ShloMosaic.Lib.ValueIdx

noncomputable section

namespace Cert.KernelIdeal.Staged

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The printed index maps, decided over the 25 points: the block of `sup` and the output block move with the
    point along the rows; the three resident inputs stay at block (0, 0); the grid coordinate is the point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ ((grid0.coords t) 0).val = t.val :=
  (by decide +kernel : ∀ t : Fin grid0.N, _)

/-- Row `p` of point `t`'s blocks is row `400 t + p` of the arrays. -/
def row (t : Fin cfg0.N) (p : Fin 400) : Fin 10000 :=
  ⟨400 * t.val + p.val, by have h := t.isLt; have hN : cfg0.N = 25 := N_0; have hp := p.isLt; omega⟩

theorem row_val (t : Fin cfg0.N) (p : Fin 400) : (row t p).val = 400 * t.val + p.val := rfl

/-- The argument arrays as launched. -/
abbrev featArr (c : Dev nD) : Vec F S10000x256 .f32 := m ((c : Thread nD τ).loc main_arg0)
abbrev supArr (c : Dev nD) : Vec F S10000x10000 .f32 := m ((c : Thread nD τ).loc main_arg1)
abbrev aggwArr (c : Dev nD) : Vec F S256x256 .f32 := m ((c : Thread nD τ).loc main_arg2)
abbrev catwArr (c : Dev nD) : Vec F S512x256 .f32 := m ((c : Thread nD τ).loc main_arg3)

/-- The block of `sup` at point `t`: rows `400 t + p`. -/
theorem sup_blk_at (c : Dev nD) (t : Fin cfg0.N) (p : Fin 400) (n : Fin 10000) :
    iblk m c 0 t (ix2 p n) = supArr m c (ix2 (row t p) n) := by
  obtain ⟨e00, e01, -⟩ := idx_facts t
  unfold iblk
  rw [View.read_apply]
  show V m c main_arg1 _ = m (c.tc.loc main_arg1) _
  unfold V
  congr 1
  funext a
  apply Fin.ext
  match a with
  | ⟨0, _⟩ => show win0_0.index t (0 : Fin 2) * 400 + 1 * p.val = 400 * t.val + p.val; rw [e00]; omega
  | ⟨1, _⟩ => show win0_0.index t (1 : Fin 2) * 10000 + 1 * n.val = n.val; rw [e01]; omega

/-- `feat`, staged whole at every point, at an index. -/
theorem feat_blk_at (c : Dev nD) (t : Fin cfg0.N) (n : Fin 10000) (j : Fin 256) :
    iblk m c 1 t (ix2 n j) = featArr m c (ix2 n j) := by
  obtain ⟨-, -, e10, e11, -⟩ := idx_facts t
  unfold iblk
  rw [View.read_apply]
  show V m c main_arg0 _ = m (c.tc.loc main_arg0) _
  unfold V
  congr 1
  funext a
  apply Fin.ext
  match a with
  | ⟨0, _⟩ => show win0_1.index t (0 : Fin 2) * 10000 + 1 * n.val = n.val; rw [e10]; omega
  | ⟨1, _⟩ => show win0_1.index t (1 : Fin 2) * 256 + 1 * j.val = j.val; rw [e11]; omega

/-- `feat`'s staged block IS the array, at every point. -/
theorem feat_blk_eq (c : Dev nD) (t : Fin cfg0.N) : (iblk m c 1 t : Vec F S10000x256 .f32) = featArr m c := by
  funext i
  obtain ⟨n, j, rfl⟩ : ∃ (n : Fin 10000) (j : Fin 256), i = ix2 n j := ⟨i 0, i 1, eq_ix2 i⟩
  exact feat_blk_at m c t n j

/-- `agg_wei`, staged whole at every point. -/
theorem aggw_blk_at (c : Dev nD) (t : Fin cfg0.N) (j k : Fin 256) :
    iblk m c 2 t (ix2 j k) = aggwArr m c (ix2 j k) := by
  obtain ⟨-, -, -, -, e20, e21, -⟩ := idx_facts t
  unfold iblk
  rw [View.read_apply]
  show V m c main_arg2 _ = m (c.tc.loc main_arg2) _
  unfold V
  congr 1
  funext a
  apply Fin.ext
  match a with
  | ⟨0, _⟩ => show win0_2.index t (0 : Fin 2) * 256 + 1 * j.val = j.val; rw [e20]; omega
  | ⟨1, _⟩ => show win0_2.index t (1 : Fin 2) * 256 + 1 * k.val = k.val; rw [e21]; omega

/-- `cat_wei`, staged whole at every point. -/
theorem catw_blk_at (c : Dev nD) (t : Fin cfg0.N) (k : Fin 512) (q : Fin 256) :
    iblk m c 3 t (ix2 k q) = catwArr m c (ix2 k q) := by
  obtain ⟨-, -, -, -, -, -, e30, e31, -⟩ := idx_facts t
  unfold iblk
  rw [View.read_apply]
  show V m c main_arg3 _ = m (c.tc.loc main_arg3) _
  unfold V
  congr 1
  funext a
  apply Fin.ext
  match a with
  | ⟨0, _⟩ => show win0_3.index t (0 : Fin 2) * 512 + 1 * k.val = k.val; rw [e30]; omega
  | ⟨1, _⟩ => show win0_3.index t (1 : Fin 2) * 256 + 1 * q.val = q.val; rw [e31]; omega

end Cert.KernelIdeal.Staged

end
-- ==== Proof.Carried.lean ====
/-
  What the carried scratch and the output block hold after each grid point.

  The scratch is written once, at the first point, with all of `feat` (through the scratch's payload) and never
  again: by induction on the point it holds that after EVERY point. So the block every point writes back is the same
  payload of the point's block of `sup`, that scratch, `agg_wei`, the point's own rows of `feat` and the halves of
  `cat_wei` — at the first point because the body reads the scratch right after storing it, later because the point
  before left it so. (`feat` is staged whole at every point, so the first point's block of it is the array.)
-/
import proofs.«145825_g76141180224220_cont_sun_c4_842_3_alg».proof.Proof.Cases
import proofs.«145825_g76141180224220_cont_sun_c4_842_3_alg».proof.Proof.Staged

noncomputable section

namespace Cert.KernelIdeal.Carried

open Cert.KernelIdeal Cert.KernelIdeal.Gen Cert.KernelIdeal.Cases Cert.KernelIdeal.Staged
open Idealize.ShloMosaic Idealize.ShloMosaic.TcCoe Idealize.SL.Sem

variable {F : FTy → Type} [FloatOps F]
variable (m : (ℓ : Loc nD τ sig) → Buf (Elt F) ℓ)

/-- The components of a pair known by an equation, taken without reducing anything. -/
theorem fst_of_eq {α β : Type} {p : α × β} {a : α} {b : β} (h : p = (a, b)) : p.1 = a := by subst h; rfl
theorem snd_of_eq {α β : Type} {p : α × β} {a : α} {b : β} (h : p = (a, b)) : p.2 = b := by subst h; rfl

/-- At a point of the first case the scratch is left at `feat`'s block through the scratch's payload. -/
theorem sout_A_at (c : Dev nD) (t : Fin cfg0.N) (h0 : t.val % 25 = 0) :
    sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t) = k0_pay1 (iblk m c 1 t) :=
  sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)

/-- At a later point the scratch is left as found. -/
theorem sout_B_at (c : Dev nD) (t : Fin cfg0.N) (h0 : ¬t.val % 25 = 0) (xs0 : Vec F S10000x256 .bf16) :
    sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) xs0 = xs0 :=
  sout_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) xs0

/-- At a point of the first case the block is the payload over the scratch just stored. -/
theorem out_A_at (c : Dev nD) (t : Fin cfg0.N) (h0 : t.val % 25 = 0) :
    out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)
      = k0_pay2 (iblk m c 0 t) (k0_pay1 (iblk m c 1 t)) (iblk m c 2 t) (featRows (grid0.coords t) (iblk m c 1 t))
          (catLo (iblk m c 3 t)) (catHi (iblk m c 3 t)) :=
  out_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)

/-- At a later point the block is the payload over the scratch as it finds it. -/
theorem out_B_at (c : Dev nD) (t : Fin cfg0.N) (h0 : ¬t.val % 25 = 0) (xs0 : Vec F S10000x256 .bf16) :
    out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) xs0
      = k0_pay2 (iblk m c 0 t) xs0 (iblk m c 2 t) (featRows (grid0.coords t) (iblk m c 1 t))
          (catLo (iblk m c 3 t)) (catHi (iblk m c 3 t)) :=
  out_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) xs0

/-- THE SCRATCH AFTER ANY POINT: all of `feat` through the scratch's payload — by induction on the point: a point of
    the first case stores it, a later point leaves what the point before left. -/
theorem scratch_eq (c : Dev nD) (n : ℕ) : ∀ hn : n < cfg0.N, (outsAt0 m c n hn).2 = k0_pay1 (featArr m c) := by
  induction n using Nat.strong_induction_on with
  | _ n ih =>
    intro hn
    by_cases h0 : n % 25 = 0
    · exact ((snd_of_eq (outsAt0_A m c ⟨n, hn⟩ h0)).trans (sout_A_at m c ⟨n, hn⟩ h0)).trans
        (congrArg k0_pay1 (feat_blk_eq m c ⟨n, hn⟩))
    · have hpos : n - 1 < n := by omega
      exact ((snd_of_eq (outsAt0_B m c ⟨n, hn⟩ h0)).trans (sout_B_at m c ⟨n, hn⟩ h0 _)).trans
        (ih (n - 1) hpos _)

/-- THE BLOCK AFTER ANY POINT: the payload of the point's blocks over the scratch holding `feat`. -/
theorem out_eq (c : Dev nD) (t : Fin cfg0.N) :
    (outsAt0 m c t.val t.isLt).1
      = k0_pay2 (iblk m c 0 t) (k0_pay1 (featArr m c)) (iblk m c 2 t) (featRows (grid0.coords t) (iblk m c 1 t))
          (catLo (iblk m c 3 t)) (catHi (iblk m c 3 t)) := by
  by_cases h0 : t.val % 25 = 0
  · exact ((fst_of_eq (outsAt0_A m c t h0)).trans (out_A_at m c t h0)).trans
      (congrArg (fun s : Vec F S10000x256 .f32 => k0_pay2 (iblk m c 0 t) (k0_pay1 s) (iblk m c 2 t)
        (featRows (grid0.coords t) (iblk m c 1 t)) (catLo (iblk m c 3 t)) (catHi (iblk m c 3 t))) (feat_blk_eq m c t))
  · exact ((fst_of_eq (outsAt0_B m c t h0)).trans (out_B_at m c t h0 _)).trans
      (congrArg (fun s : Vec F S10000x256 .bf16 => k0_pay2 (iblk m c 0 t) s (iblk m c 2 t)
        (featRows (grid0.coords t) (iblk m c 1 t)) (catLo (iblk m c 3 t)) (catHi (iblk m c 3 t)))
        (scratch_eq m c (t.val - 1) _))

end Cert.KernelIdeal.Carried

end
-- ==== Proof.SumSplit.lean ====
/-
  A sum over 512 terms is the sum over its first 256 terms plus the sum over its last 256 terms, in any additive
  commutative monoid — in particular on the extended reals, where it needs no finiteness of the terms.
  The terms are indexed by `Fin 512`; the halves by `Fin 256`, the first half at `k`, the second at `256 + k`.
-/
import Mathlib.Algebra.BigOperators.Fin

namespace Cert.SumSplit

/-- The first half's index `k < 256` inside `Fin 512`. -/
def lo (k : Fin 256) : Fin 512 := ⟨k.val, by omega⟩

/-- The second half's index `256 + k` inside `Fin 512`. -/
def hi (k : Fin 256) : Fin 512 := ⟨256 + k.val, by omega⟩

@[simp] theorem lo_val (k : Fin 256) : (lo k).val = k.val := rfl
@[simp] theorem hi_val (k : Fin 256) : (hi k).val = 256 + k.val := rfl

/-- `∑_{k<512} f k = ∑_{k<256} f k + ∑_{k<256} f (256 + k)`. -/
theorem sum_halves {M : Type*} [AddCommMonoid M] (f : Fin 512 → M) :
    ∑ k : Fin 512, f k = ∑ k : Fin 256, f (lo k) + ∑ k : Fin 256, f (hi k) := by
  have h := Fin.sum_univ_add (a := 256) (b := 256) (fun i : Fin (256 + 256) => f ⟨i.val, by omega⟩)
  have e : (∑ i : Fin (256 + 256), f ⟨i.val, by omega⟩) = ∑ k : Fin 512, f k := rfl
  rw [← e, h]
  rfl

end Cert.SumSplit
-- ==== Proof.Loads.lean ====
/-
  The body's three offset loads, read at an index.

  A load through a unit-stride rectangle reads the array at the rectangle's offset plus the index inside it. The
  point's own rows of `feat` start at row `400 · (grid coordinate)`, column 0; the two halves of `cat_wei` start at
  rows 0 and 256.
-/
import proofs.«145825_g76141180224220_cont_sun_c4_842_3_alg».proof.Proof.Cases
import proofs.«145825_g76141180224220_cont_sun_c4_842_3_alg».proof.Proof.SumSplit
import Idealize.ShloMosaic.Lib.ValueIdx

noncomputable section

namespace Cert.KernelIdeal.Loads

open Cert.KernelIdeal Cert.KernelIdeal.Gen Cert.KernelIdeal.Cases
open Idealize.ShloMosaic Idealize.ShloMosaic.ValueIdx

variable {F : FTy → Type} [FloatOps F]

/-- Row `p` of the point's rows of `feat` is row `400 · (grid coordinate) + p` of `feat`. -/
theorem featRows_at (i : grid0.Coords) (x1 : Vec F S10000x256 .f32) (p : Fin 400) (k : Fin 256) (r : Fin 10000)
    (hr : r.val = 400 * (i 0).val + p.val) : featRows i x1 (ix2 p k) = x1 (ix2 r k) := by
  have e0 : k0_off1 i 0 = 400 * (i 0).val := by rw [k0_off1_eq i]; rfl
  have e1 : k0_off1 i 1 = 0 := by rw [k0_off1_eq i]; rfl
  show x1 _ = x1 _
  congr 1
  funext a
  apply Fin.ext
  match a with
  | ⟨0, _⟩ => show k0_off1 i 0 + 1 * p.val = r.val; rw [e0, hr]; omega
  | ⟨1, _⟩ => show k0_off1 i 1 + 1 * k.val = k.val; rw [e1]; omega

/-- Row `k` of the first half of `cat_wei` is its row `k`. -/
theorem catLo_at (x3 : Vec F S512x256 .f32) (k q : Fin 256) : catLo x3 (ix2 k q) = x3 (ix2 (SumSplit.lo k) q) := by
  show x3 _ = x3 _
  congr 1
  funext a
  apply Fin.ext
  match a with
  | ⟨0, _⟩ => show 0 + 1 * k.val = k.val; omega
  | ⟨1, _⟩ => show 0 + 1 * q.val = q.val; omega

/-- Row `k` of the second half of `cat_wei` is its row `256 + k`. -/
theorem catHi_at (x3 : Vec F S512x256 .f32) (k q : Fin 256) : catHi x3 (ix2 k q) = x3 (ix2 (SumSplit.hi k) q) := by
  show x3 _ = x3 _
  congr 1
  funext a
  apply Fin.ext
  match a with
  | ⟨0, _⟩ => show 256 + 1 * k.val = 256 + k.val; omega
  | ⟨1, _⟩ => show 0 + 1 * q.val = q.val; omega

end Cert.KernelIdeal.Loads

end
-- ==== Proof.Spec.lean ====
/-
  The function both programs compute, one row of the result at a time, on the extended reals.

  For a row `r` write `s` for row `r` of `sup` (10000 entries) and `f` for row `r` of `feat` (256 entries). Then
    a_j   = ∑ₙ s_n · feat(n, j)                     (row r of sup · feat)
    b_k   = ∑ⱼ a_j · agg_wei(j, k)                  (row r of (sup · feat) · agg_wei)
    pre_c = ∑ₖ b_k · cat_wei(k, c) + ∑ₖ f_k · cat_wei(256 + k, c)
    x_c   = max(pre_c, 0)
    out_c = x_c / max(sqrt(∑_q x_q · x_q), eps).
  The kernel computes `pre` as written (two products against the two halves of `cat_wei`); the reference computes it as
  ONE product of the concatenated row `[ b | f ]` (512 entries) with `cat_wei`. The two are equal because a sum over
  512 terms is the sum over its first 256 plus the sum over its last 256 (`preCat_eq_preSplit`): no entry needs to be
  finite for that.
  The two float words are kept as the words they are: the same word on both sides is never evaluated.
-/
import Idealize.ShloMosaic.PureOps.Ideal
import Idealize.ShloMosaic.Lib.ValueIdx
import proofs.«145825_g76141180224220_cont_sun_c4_842_3_alg».proof.Proof.SumSplit

noncomputable section

namespace Cert.Spec

open Idealize.ShloMosaic

variable (feat : Fin 10000 → Fin 256 → EReal) (aggw : Fin 256 → Fin 256 → EReal)

/-- Row `r` of `sup · feat` from row `r` of `sup`: entry `j` is `∑ₙ s_n · feat(n, j)`. -/
def agg (s : Fin 10000 → EReal) (j : Fin 256) : EReal :=
  ∑ n : Fin 10000, s n * feat n j

/-- Row `r` of `(sup · feat) · agg_wei`: entry `k` is `∑ⱼ a_j · agg_wei(j, k)`. -/
def aggOut (s : Fin 10000 → EReal) (k : Fin 256) : EReal :=
  ∑ j : Fin 256, agg feat s j * aggw j k

/-- The pre-activation as the kernel writes it: the aggregated row against the first half of `cat_wei` plus the
    row of `feat` against the second half. -/
def preSplit (catLo catHi : Fin 256 → Fin 256 → EReal) (s : Fin 10000 → EReal) (f : Fin 256 → EReal) (c : Fin 256) : EReal :=
  (∑ k : Fin 256, aggOut feat aggw s k * catLo k c) + ∑ k : Fin 256, f k * catHi k c

/-- Two pre-activations whose six ingredients agree entry by entry are equal. -/
theorem preSplit_congr {feat feat' : Fin 10000 → Fin 256 → EReal} {aggw aggw' : Fin 256 → Fin 256 → EReal}
    {catLo catLo' catHi catHi' : Fin 256 → Fin 256 → EReal} {s s' : Fin 10000 → EReal} {f f' : Fin 256 → EReal}
    (h1 : ∀ n j, feat n j = feat' n j) (h2 : ∀ j k, aggw j k = aggw' j k) (h3 : ∀ k c, catLo k c = catLo' k c)
    (h4 : ∀ k c, catHi k c = catHi' k c) (h5 : ∀ n, s n = s' n) (h6 : ∀ k, f k = f' k) :
    preSplit feat aggw catLo catHi s f = preSplit feat' aggw' catLo' catHi' s' f' := by
  obtain rfl : feat = feat' := funext fun n => funext fun j => h1 n j
  obtain rfl : aggw = aggw' := funext fun j => funext fun k => h2 j k
  obtain rfl : catLo = catLo' := funext fun k => funext fun c => h3 k c
  obtain rfl : catHi = catHi' := funext fun k => funext fun c => h4 k c
  obtain rfl : s = s' := funext h5
  obtain rfl : f = f' := funext h6
  rfl

/-- The concatenated row `[ b | f ]`: entry `k < 256` is `b_k`, entry `256 + k` is `f_k`. -/
def catRow (s : Fin 10000 → EReal) (f : Fin 256 → EReal) (k : Fin 512) : EReal :=
  if h : k.val < 256 then aggOut feat aggw s ⟨k.val, h⟩ else f ⟨k.val - 256, by omega⟩

/-- The pre-activation as the reference writes it: the concatenated row against all of `cat_wei`. -/
def preCat (catw : Fin 512 → Fin 256 → EReal) (s : Fin 10000 → EReal) (f : Fin 256 → EReal) (c : Fin 256) : EReal :=
  ∑ k : Fin 512, catRow feat aggw s f k * catw k c

/-- The one law between the two programs: the product with the concatenated row is the sum of the two products
    with its halves. -/
theorem preCat_eq_preSplit (catw : Fin 512 → Fin 256 → EReal) (s : Fin 10000 → EReal) (f : Fin 256 → EReal) (c : Fin 256) :
    preCat feat aggw catw s f c
      = preSplit feat aggw (fun k c => catw (SumSplit.lo k) c) (fun k c => catw (SumSplit.hi k) c) s f c := by
  unfold preCat preSplit
  rw [SumSplit.sum_halves]
  refine congrArg₂ (· + ·) ?_ ?_
  · refine Finset.sum_congr rfl fun k _ => ?_
    unfold catRow
    rw [dif_pos (show (SumSplit.lo k).val < 256 from k.isLt)]
    rfl
  · refine Finset.sum_congr rfl fun k _ => ?_
    unfold catRow
    rw [dif_neg (show ¬(SumSplit.hi k).val < 256 by rw [SumSplit.hi_val]; omega)]
    congr 2
    apply Fin.ext
    show 256 + k.val - 256 = k.val
    omega

/-- The rectified, normalized row from its pre-activations: `x_c / max(sqrt(∑ x_q²), eps)` with `x = max(pre, 0)`. -/
def normRow (pre : Fin 256 → EReal) (c : Fin 256) : EReal :=
  Ideal.div (max (pre c) (Ideal.ofBits .f32 0x00000000#32))
    (max (Ideal.sqrt (∑ q : Fin 256, max (pre q) (Ideal.ofBits .f32 0x00000000#32) * max (pre q) (Ideal.ofBits .f32 0x00000000#32)))
      (Ideal.ofBits .f32 0x2B8CBCCC#32))

/-- THE RESULT as one function of the four argument arrays: at `(r, c)` the normalized row `r`, its
    pre-activations in the kernel's arrangement (the two halves of `cat_wei` apart), of row `r` of `sup` and row `r`
    of `feat`. -/
def G (x0 : (⟨2, ![10000, 256]⟩ : Shape).Idx → EReal) (x1 : (⟨2, ![10000, 10000]⟩ : Shape).Idx → EReal)
    (x2 : (⟨2, ![256, 256]⟩ : Shape).Idx → EReal) (x3 : (⟨2, ![512, 256]⟩ : Shape).Idx → EReal) :
    (⟨2, ![10000, 256]⟩ : Shape).Idx → EReal :=
  fun i => normRow (preSplit (fun n j => x0 (ValueIdx.ix2 n j)) (fun j k => x2 (ValueIdx.ix2 j k))
    (fun k c => x3 (ValueIdx.ix2 (SumSplit.lo k) c)) (fun k c => x3 (ValueIdx.ix2 (SumSplit.hi k) c))
    (fun n => x1 (ValueIdx.ix2 (i 0) n)) (fun k => x0 (ValueIdx.ix2 (i 0) k))) (i 1)

end Cert.Spec

end
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«145825_g76141180224220_cont_sun_c4_842_3_alg».proof.Proof.LibDotIdx
import proofs.«145825_g76141180224220_cont_sun_c4_842_3_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.PayValue.lean ====
/-
  The kernel body's arithmetic, read at an index, is the specification's row function.

  The body's one store into the output block writes, from the values it loaded — the block of 400 rows of `sup`
  (`v3`), all of `feat` as the carried scratch holds it (`v5`), `agg_wei` (`v7`), the block's own 400 rows of `feat`
  (`v11`) and the two halves of `cat_wei` (`v12`, `v14`) —, at row `p` of the block and column `c`:
    x_c / max(sqrt(∑_q x_q · x_q), eps),   x = max(((v3 · v5) · v7) · v12 + v11 · v14, 0)  read along row `p`.
  Each of the four matrix products into the zero accumulator is a plain sum over its contracted coordinate; the change of
  float format before the first one is the identity on the extended reals; the lane sum's neutral accumulator adds
  nothing; the per-row results travel as one column (a shape cast `[400] → [400, 1]`) laid along the row again (a
  broadcast `[400, 1] → [400, 256]`).
-/
import proofs.«145825_g76141180224220_cont_sun_c4_842_3_alg».proof.Proof.Gen.KernelIdeal.Skeleton
import proofs.«145825_g76141180224220_cont_sun_c4_842_3_alg».proof.Proof.Spec
import proofs.«145825_g76141180224220_cont_sun_c4_842_3_alg».proof.Proof.LibDotIdx
import proofs.«145825_g76141180224220_cont_sun_c4_842_3_alg».proof.Proof.LibKeepdims
import proofs.«145825_g76141180224220_cont_sun_c4_842_3_alg».proof.Proof.LibRowOps
import Idealize.ShloMosaic.Lib.ValueIdx
import Idealize.ShloMosaic.Lib.Pipeline.Value
import Idealize.ShloMosaic.PureOps.Ideal.Laws

noncomputable section

namespace Cert.KernelIdeal.PayValue

open Cert.KernelIdeal Cert.KernelIdeal.Gen
open Idealize.ShloMosaic Idealize.ShloMosaic.ValueIdx

/-! ## The body's intermediate values, at any float instance -/

section AnyInstance

variable {F : FTy → Type} [FloatOps F]
variable (v3 : Vec F S400x10000 .f32) (v5 : Vec F S10000x256 .bf16) (v7 : Vec F S256x256 .f32)
  (v11 : Vec F S400x256 .f32) (v12 v14 : Vec F S256x256 .f32)

/-- The block's pre-activations: `((v3 · v5) · v7) · v12 + v11 · v14`. -/
def Pre : FVec F S400x256 .f32 :=
  addf
    (matmul dot_S400x256_S256x256_S400x256_1_0_0_1_n_n none
      (matmul dot_S400x256_S256x256_S400x256_1_0_0_1_n_n none
        (matmul dot_S400x10000_S10000x256_S400x256_1_0_0_1_n_n none (truncf .bf16 v3 bitsLt_bf16_f32) v5
          (constant S400x256 .f32 0x00000000#32))
        v7 (constant S400x256 .f32 0x00000000#32))
      v12 (constant S400x256 .f32 0x00000000#32))
    (matmul dot_S400x256_S256x256_S400x256_1_0_0_1_n_n none v11 v14 (constant S400x256 .f32 0x00000000#32))

/-- The block's rectified entries: `max(pre, 0)`. -/
def X : FVec F S400x256 .f32 :=
  maximumf (Pre v3 v5 v7 v11 v12 v14) (broadcast S400x256 (Scalar.ofBits .f32 0x00000000#32))

/-- The payload is the quotient of the rectified block by its guarded row norms laid along the rows. -/
theorem pay2_eq :
    k0_pay2 v3 v5 v7 v11 v12 v14
      = divf (X v3 v5 v7 v11 v12 v14)
          (broadcastTo S400x256
            (maximumf
              (sqrt (shapeCast S400x1
                (multiReduction .add [1] S400 (mulf (X v3 v5 v7 v11 v12 v14) (X v3 v5 v7 v11 v12 v14)) 0x00000000#32
                  reduces_S400x256_S400 (.inl rfl) rfl)
                shapeCasts_S400_S400x1))
              (broadcast S400x1 (Scalar.ofBits .f32 0x2B8CBCCC#32)))
            broadcasts_S400x1_S400x256) := rfl

end AnyInstance

variable (v3 : Vec Ideal S400x10000 .f32) (v5 : Vec Ideal S10000x256 .bf16) (v7 : Vec Ideal S256x256 .f32)
  (v11 : Vec Ideal S400x256 .f32) (v12 v14 : Vec Ideal S256x256 .f32)

/-! ## The two shapes of matrix product in the body, at an index -/

/-- `[400, 10000] × [10000, 256]` into the zero accumulator, at `(p, j)`. -/
theorem mm1_at (A : FVec Ideal S400x10000 .bf16) (B : FVec Ideal S10000x256 .bf16) (p : Fin 400) (j : Fin 256) :
    matmul dot_S400x10000_S10000x256_S400x256_1_0_0_1_n_n none A B (constant (F := Ideal) S400x256 .f32 0x00000000#32) (ix2 p j)
      = ∑ n : Fin 10000, A (ix2 p n) * B (ix2 n j) :=
  DotIdx.matmul_plain_zero_apply dot_S400x10000_S10000x256_S400x256_1_0_0_1_n_n_wf none A B p j

/-- `[400, 256] × [256, 256]` into the zero accumulator, at `(p, k)`. -/
theorem mm2_at (A : FVec Ideal S400x256 .f32) (B : FVec Ideal S256x256 .f32) (p : Fin 400) (k : Fin 256) :
    matmul dot_S400x256_S256x256_S400x256_1_0_0_1_n_n none A B (constant (F := Ideal) S400x256 .f32 0x00000000#32) (ix2 p k)
      = ∑ j : Fin 256, A (ix2 p j) * B (ix2 j k) :=
  DotIdx.matmul_plain_zero_apply dot_S400x256_S256x256_S400x256_1_0_0_1_n_n_wf none A B p k

/-! ## The intermediate values at an index, on the extended reals -/

/-- The row's pre-activations in the specification's terms, from the body's loads: row `p` of the block. -/
abbrev preOf (p : Fin 400) : Fin 256 → EReal :=
  Spec.preSplit (fun n j => v5 (ix2 n j)) (fun j k => v7 (ix2 j k)) (fun k c => v12 (ix2 k c)) (fun k c => v14 (ix2 k c))
    (fun n => v3 (ix2 p n)) (fun k => v11 (ix2 p k))

/-- The pre-activation at row `p`, column `c`. -/
theorem Pre_at (p : Fin 400) (c : Fin 256) :
    Pre v3 v5 v7 v11 v12 v14 (ix2 p c) = preOf v3 v5 v7 v11 v12 v14 p c := by
  unfold Pre
  rw [addf_apply, mm2_at _ v12 p c, mm2_at v11 v14 p c]
  show _ = Spec.preSplit _ _ _ _ _ _ c
  unfold Spec.preSplit
  refine congrArg₂ (· + ·) (Finset.sum_congr rfl fun k _ => ?_) rfl
  refine congrArg (· * v12 (ix2 k c)) ?_
  rw [mm2_at _ v7 p k]
  unfold Spec.aggOut
  refine Finset.sum_congr rfl fun j _ => ?_
  refine congrArg (· * v7 (ix2 j k)) ?_
  rw [mm1_at _ v5 p j]
  rfl

/-- The rectified entry at row `p`, column `c`. -/
theorem X_at (p : Fin 400) (c : Fin 256) :
    X v3 v5 v7 v11 v12 v14 (ix2 p c) = max (preOf v3 v5 v7 v11 v12 v14 p c) (Ideal.ofBits .f32 0x00000000#32) := by
  unfold X
  rw [maximumf_apply, broadcast_apply, Pre_at]
  rfl

/-- THE PAYLOAD AT AN INDEX: row `p` of the block, column `c`, is the specification's normalized row. -/
theorem pay2_at (p : Fin 400) (c : Fin 256) :
    k0_pay2 (F := Ideal) v3 v5 v7 v11 v12 v14 (ix2 p c) = Spec.normRow (preOf v3 v5 v7 v11 v12 v14 p) c := by
  have hsum : multiReduction (F := Ideal) .add [1] S400 (mulf (X v3 v5 v7 v11 v12 v14) (X v3 v5 v7 v11 v12 v14)) 0x00000000#32
        reduces_S400x256_S400 (.inl rfl) rfl (ix1 p)
      = ∑ q : Fin 256, max (preOf v3 v5 v7 v11 v12 v14 p q) (Ideal.ofBits .f32 0x00000000#32)
          * max (preOf v3 v5 v7 v11 v12 v14 p q) (Ideal.ofBits .f32 0x00000000#32) := by
    refine (Cert.LibRowOps.rowSum_kernel_apply (mulf (X v3 v5 v7 v11 v12 v14) (X v3 v5 v7 v11 v12 v14)) 0x00000000#32
      reduces_S400x256_S400 (.inl rfl) rfl p).trans ?_
    exact Finset.sum_congr rfl fun q _ => by rw [mulf_apply, X_at]
  have hcol : (maximumf
        (sqrt (shapeCast S400x1
          (multiReduction (F := Ideal) .add [1] S400 (mulf (X v3 v5 v7 v11 v12 v14) (X v3 v5 v7 v11 v12 v14)) 0x00000000#32
            reduces_S400x256_S400 (.inl rfl) rfl)
          shapeCasts_S400_S400x1))
        (broadcast S400x1 (Scalar.ofBits .f32 0x2B8CBCCC#32))) (ix2 p (0 : Fin 1))
      = max (Ideal.sqrt (∑ q : Fin 256, max (preOf v3 v5 v7 v11 v12 v14 p q) (Ideal.ofBits .f32 0x00000000#32)
          * max (preOf v3 v5 v7 v11 v12 v14 p q) (Ideal.ofBits .f32 0x00000000#32))) (Ideal.ofBits .f32 0x2B8CBCCC#32) := by
    rw [maximumf_apply, broadcast_apply]
    show max (Ideal.sqrt (shapeCast S400x1 _ shapeCasts_S400_S400x1 (ix2 p (0 : Fin 1)))) _ = _
    rw [Cert.SupCon.Ker.shapeCast_a_a1_apply, hsum]
    rfl
  rw [pay2_eq, divf_apply, Cert.SupCon.Ker.broadcastTo_a1_ab_apply, hcol, X_at]
  rfl

/-- The scratch's payload: the change of float format and the same-shape cast are the identity. -/
theorem pay1_eq (v28 : Vec Ideal S10000x256 .f32) : k0_pay1 (F := Ideal) v28 = v28 := by
  show shapeCast S10000x256 (truncf (F := Ideal) .bf16 v28 bitsLt_bf16_f32) shapeCasts_S10000x256_S10000x256 = v28
  rw [shapeCast_self]
  rfl

end Cert.KernelIdeal.PayValue

end
-- ==== Proof.Blocks.lean ====
/-
  From the blocks to the array: the kernel's result array after the run is the specification's `G`.

  Grid point `t` (of 25) stages rows `400 t … 400 t + 399` of `sup` and writes back rows `400 t … 400 t + 399` of the
  result; the three other inputs are staged whole at every point. Reading each staged block where it lies in its array,
  the block a point writes back is the payload of those blocks over the scratch (all of `feat`), which at row `p` of the
  block is the specification's normalized row `400 t + p`: the block of `G`. The 25 blocks cover the 10000 rows (row
  `r` lies in block `r / 400`), so the array the run ends with is `G`.
-/
import proofs.«145825_g76141180224220_cont_sun_c4_842_3_alg».proof.Proof.Gen.KernelIdeal.Value
import proofs.«145825_g76141180224220_cont_sun_c4_842_3_alg».proof.Proof.Carried
import proofs.«145825_g76141180224220_cont_sun_c4_842_3_alg».proof.Proof.Staged
import proofs.«145825_g76141180224220_cont_sun_c4_842_3_alg».proof.Proof.Loads
import proofs.«145825_g76141180224220_cont_sun_c4_842_3_alg».proof.Proof.PayValue
import proofs.«145825_g76141180224220_cont_sun_c4_842_3_alg».proof.Proof.Spec
import Idealize.ShloMosaic.Lib.Pipeline.Value
import Idealize.ShloMosaic.Lib.ValueIdx

noncomputable section

namespace Cert.KernelIdeal.Blocks

open Cert.KernelIdeal Cert.KernelIdeal.Gen Cert.KernelIdeal.Cases Cert.KernelIdeal.Carried Cert.KernelIdeal.Staged
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array: `G` of the four argument arrays as launched. -/
abbrev result (c : Dev nD) : Buf (Elt Ideal) ((c : Thread nD τ).loc main_v0) :=
  Spec.G (m ((c : Thread nD τ).loc main_arg0)) (m ((c : Thread nD τ).loc main_arg1))
    (m ((c : Thread nD τ).loc main_arg2)) (m ((c : Thread nD τ).loc main_arg3))

/-! ## What a point writes back -/

/-- The pre-activations of row `p` of point `t`'s block, from the blocks the body loaded, are the specification's
    for row `400 t + p` of the arrays. -/
theorem pre_eq (c : Dev nD) (t : Fin cfg0.N) (p : Fin 400) :
    PayValue.preOf (iblk m c 0 t) (k0_pay1 (featArr m c)) (iblk m c 2 t) (featRows (grid0.coords t) (iblk m c 1 t))
        (catLo (iblk m c 3 t)) (catHi (iblk m c 3 t)) p
      = Spec.preSplit (fun n j => m ((c : Thread nD τ).loc main_arg0) (ix2 n j))
          (fun j k => m ((c : Thread nD τ).loc main_arg2) (ix2 j k))
          (fun k q => m ((c : Thread nD τ).loc main_arg3) (ix2 (SumSplit.lo k) q))
          (fun k q => m ((c : Thread nD τ).loc main_arg3) (ix2 (SumSplit.hi k) q))
          (fun n => m ((c : Thread nD τ).loc main_arg1) (ix2 (row t p) n))
          (fun k => m ((c : Thread nD τ).loc main_arg0) (ix2 (row t p) k)) := by
  obtain ⟨-, -, -, -, -, -, -, -, -, -, eg⟩ := idx_facts t
  refine Spec.preSplit_congr ?_ ?_ ?_ ?_ ?_ ?_
  · intro n j
    show k0_pay1 (F := Ideal) (featArr m c) (ix2 n j) = _
    rw [PayValue.pay1_eq (featArr m c)]
  · intro j k
    exact aggw_blk_at m c t j k
  · intro k q
    exact (Loads.catLo_at (iblk m c 3 t) k q).trans (catw_blk_at m c t (SumSplit.lo k) q)
  · intro k q
    exact (Loads.catHi_at (iblk m c 3 t) k q).trans (catw_blk_at m c t (SumSplit.hi k) q)
  · intro n
    exact sup_blk_at m c t p n
  · intro k
    exact (Loads.featRows_at (grid0.coords t) (iblk m c 1 t) p k (row t p) (by rw [row_val, eg])).trans
      (feat_blk_at m c t (row t p) k)

/-- WHAT POINT `t` WRITES BACK is block `t` of `G`. -/
theorem flushed_eq (c : Dev nD) (t : Fin cfg0.N) :
    (dats m 0 c).flushed 4 t = ((cfg0.win 4).blk t).view.read (Elt Ideal) (result m c) := by
  obtain ⟨-, -, -, -, -, -, -, -, e40, e41, -⟩ := idx_facts t
  rw [Cert.KernelIdeal.Value.flushed4, out_eq m c t]
  funext j
  obtain ⟨p, q, rfl⟩ : ∃ (p : Fin 400) (q : Fin 256), j = ix2 p q := ⟨j 0, j 1, eq_ix2 j⟩
  have hemb : ((cfg0.win 4).blk t).view.emb (ix2 p q) = ix2 (row t p) q := by
    funext a
    apply Fin.ext
    match a with
    | ⟨0, _⟩ => show win0_4.index t (0 : Fin 2) * 400 + 1 * p.val = 400 * t.val + p.val; rw [e40]; omega
    | ⟨1, _⟩ => show win0_4.index t (1 : Fin 2) * 256 + 1 * q.val = q.val; rw [e41]; omega
  show k0_pay2 (F := Ideal) (iblk m c 0 t) (k0_pay1 (featArr m c)) (iblk m c 2 t)
      (featRows (grid0.coords t) (iblk m c 1 t)) (catLo (iblk m c 3 t)) (catHi (iblk m c 3 t)) (ix2 p q)
    = result m c (((cfg0.win 4).blk t).view.emb (ix2 p q))
  rw [hemb]
  refine (PayValue.pay2_at (iblk m c 0 t) (k0_pay1 (featArr m c)) (iblk m c 2 t)
    (featRows (grid0.coords t) (iblk m c 1 t)) (catLo (iblk m c 3 t)) (catHi (iblk m c 3 t)) p q).trans ?_
  exact congrArg (fun pre => Spec.normRow pre q) (pre_eq m c t p)

/-! ## The cover, the array, the run -/

/-- An index of the array is in point `t`'s block iff each coordinate is in the block's range on its axis. -/
theorem mem_blk (t : Fin cfg0.N) (i : S10000x256.Idx) :
    i ∈ ((cfg0.win 4).blk t).view.set ↔ ∀ a : Fin 2, win0_4.index t a * S400x256.size a ≤ (i a).val
      ∧ (i a).val < win0_4.index t a * S400x256.size a + S400x256.size a := by
  show i ∈ ((View.whole main_v0).slice (win0_4.rect t)).set ↔ _
  rw [View.set_slice_whole, Rect.mem_set_unit]
  exact Iff.rfl

/-- THE ARRAY after the run is `G`: every row lies in the block of the point `row / 400`. -/
theorem final (c : Dev nD) : (dats m 0 c).arrAt 4 cfg0.N = result m c :=
  (dats m 0 c).arrAt_eq_of_cover 4 (result m c) (fun t _ => flushed_eq m c t) fun i => by
    have hN : cfg0.N = 25 := N_0
    have hi0 : (i 0).val < 10000 := (i 0).isLt
    have hi1 : (i 1).val < 256 := (i 1).isLt
    obtain ⟨t, ht⟩ : ∃ t : Fin cfg0.N, t.val = (i 0).val / 400 := ⟨⟨(i 0).val / 400, by rw [hN]; omega⟩, rfl⟩
    obtain ⟨-, -, -, -, -, -, -, -, e40, e41, -⟩ := idx_facts t
    refine ⟨t, flush0_4 t, ?_⟩
    rw [mem_blk]
    intro a
    match a with
    | ⟨0, _⟩ =>
      show win0_4.index t (0 : Fin 2) * 400 ≤ (i 0).val ∧ (i 0).val < win0_4.index t (0 : Fin 2) * 400 + 400
      rw [e40, ht]; omega
    | ⟨1, _⟩ =>
      show win0_4.index t (1 : Fin 2) * 256 ≤ (i 1).val ∧ (i 1).val < win0_4.index t (1 : Fin 2) * 256 + 256
      rw [e41]; omega

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Blocks

end
-- ==== Proof.RefValue.lean ====
/-
  The reference's result, read at an index, is the specification's row function.

  The reference computes, for the row `r` of an index `(r, c)`: the row of `sup · feat` (a sum over 10000), its product with
  `agg_wei` (a sum over 256), that row and the row of `feat` laid side by side (512 entries), the product of the
  concatenated row with `cat_wei` (a sum over 512), the maximum with 0, and the division by
  `max(sqrt(0 + ∑ x²), eps)` carried along the row as one column. Each stage is read at `(r, c)` from the stage
  before; the concatenation reads its first piece at a column below 256 and its second piece, 256 columns to the left,
  otherwise. The result is the specification's `normRow` of `preCat`, hence (the sum over 512 split in two) of `preSplit`.
-/
import proofs.«145825_g76141180224220_cont_sun_c4_842_3_alg».proof.Proof.Gen.ReferenceIdeal.Read
import proofs.«145825_g76141180224220_cont_sun_c4_842_3_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx

/-- The four argument arrays' types. -/
abbrev TFeat := (⟨S10000x256, .f32⟩ : BufTy).Contents (Elt Ideal)
abbrev TSup := (⟨S10000x10000, .f32⟩ : BufTy).Contents (Elt Ideal)
abbrev TAgg := (⟨S256x256, .f32⟩ : BufTy).Contents (Elt Ideal)
abbrev TCat := (⟨S512x256, .f32⟩ : BufTy).Contents (Elt Ideal)

variable (x0 : TFeat) (x1 : TSup) (x2 : TAgg) (x3 : TCat)

/-- The zero word adds nothing. -/
theorem zeroWord_add (x : EReal) : Ideal.ofBits .f32 0x00000000#32 + x = x := by
  rw [Ideal.ofBits_zero_f32, zero_add]

/-- `sup · feat` at `(r, j)`: the sum over `n` of `sup(r, n) · feat(n, j)`. -/
theorem v0_at (r : Fin 10000) (j : Fin 256) :
    val_main_v0 (F := Ideal) x0 x1 (ix2 r j)
      = Spec.agg (fun n j => x0 (ix2 n j)) (fun n => x1 (ix2 r n)) j := by
  rw [val_main_v0_apply]
  unfold Spec.agg
  refine Finset.sum_congr rfl fun n _ => ?_
  have el : lidx_main_v0 (ix2 r j) n = ix2 r n :=
    funext fun a => Fin.ext (by match a with | ⟨0, _⟩ => rfl | ⟨1, _⟩ => rfl)
  have er : ridx_main_v0 (ix2 r j) n = ix2 n j :=
    funext fun a => Fin.ext (by match a with | ⟨0, _⟩ => rfl | ⟨1, _⟩ => rfl)
  rw [el, er]

/-- `(sup · feat) · agg_wei` at `(r, k)`. -/
theorem v1_at (r : Fin 10000) (k : Fin 256) :
    val_main_v1 (F := Ideal) x0 x1 x2 (ix2 r k)
      = Spec.aggOut (fun n j => x0 (ix2 n j)) (fun j k => x2 (ix2 j k)) (fun n => x1 (ix2 r n)) k := by
  rw [val_main_v1_apply]
  unfold Spec.aggOut
  refine Finset.sum_congr rfl fun j _ => ?_
  have el : lidx_main_v1 (ix2 r k) j = ix2 r j :=
    funext fun a => Fin.ext (by match a with | ⟨0, _⟩ => rfl | ⟨1, _⟩ => rfl)
  have er : ridx_main_v1 (ix2 r k) j = ix2 j k :=
    funext fun a => Fin.ext (by match a with | ⟨0, _⟩ => rfl | ⟨1, _⟩ => rfl)
  rw [el, er, v0_at]

/-- The concatenation at `(r, k)`: below column 256 the aggregated row's entry `k`, from column 256 on the entry
    `k - 256` of row `r` of `feat`. -/
theorem v2_at (r : Fin 10000) (k : Fin 512) :
    val_main_v2 (F := Ideal) x0 x1 x2 (ix2 r k)
      = Spec.catRow (fun n j => x0 (ix2 n j)) (fun j k => x2 (ix2 j k)) (fun n => x1 (ix2 r n)) (fun k => x0 (ix2 r k)) k := by
  unfold val_main_v2 Spec.catRow
  by_cases h : k.val < 256
  · rw [dif_pos h]
    rw [concatenate_pair_apply_left (t := S10000x512) (s₁ := S10000x256) (s₂ := S10000x256) _ _ _ _ (ix2 r k) rfl
      (ix2 r (⟨k.val, h⟩ : Fin 256)) (fun b => by match b with | ⟨0, _⟩ => rfl | ⟨1, _⟩ => rfl)]
    exact v1_at x0 x1 x2 r ⟨k.val, h⟩
  · rw [dif_neg h]
    exact concatenate_pair_apply_right (t := S10000x512) (s₁ := S10000x256) (s₂ := S10000x256) _ _ _ _ (ix2 r k) rfl rfl
      (ix2 r (⟨k.val - 256, by omega⟩ : Fin 256))
      (fun b hb => by
        match b with
        | ⟨0, _⟩ => rfl
        | ⟨1, _⟩ => exact absurd rfl hb)
      (by show (k.val - 256) + 256 = k.val; omega)

/-- The product of the concatenated row with `cat_wei` at `(r, c)`. -/
theorem v3_at (r : Fin 10000) (c : Fin 256) :
    val_main_v3 (F := Ideal) x0 x1 x2 x3 (ix2 r c)
      = Spec.preCat (fun n j => x0 (ix2 n j)) (fun j k => x2 (ix2 j k)) (fun k c => x3 (ix2 k c))
          (fun n => x1 (ix2 r n)) (fun k => x0 (ix2 r k)) c := by
  rw [val_main_v3_apply]
  unfold Spec.preCat
  refine Finset.sum_congr rfl fun k _ => ?_
  have el : lidx_main_v3 (ix2 r c) k = ix2 r k :=
    funext fun a => Fin.ext (by match a with | ⟨0, _⟩ => rfl | ⟨1, _⟩ => rfl)
  have er : ridx_main_v3 (ix2 r c) k = ix2 k c :=
    funext fun a => Fin.ext (by match a with | ⟨0, _⟩ => rfl | ⟨1, _⟩ => rfl)
  rw [el, er, v2_at]

/-- The rectified entry at `(r, c)`. -/
theorem v4_at (r : Fin 10000) (c : Fin 256) :
    val_main_v4 (F := Ideal) x0 x1 x2 x3 (ix2 r c)
      = max (Spec.preCat (fun n j => x0 (ix2 n j)) (fun j k => x2 (ix2 j k)) (fun k c => x3 (ix2 k c))
          (fun n => x1 (ix2 r n)) (fun k => x0 (ix2 r k)) c) (Ideal.ofBits .f32 0x00000000#32) := by
  rw [val_main_v4_apply, val_main_call0_v0_apply, val_main_call0_cst_apply, v3_at]
  rfl

/-- The guarded norm of row `r`, as the one column the reference carries it in. -/
theorem v10_at (r : Fin 10000) :
    val_main_v10 (F := Ideal) x0 x1 x2 x3 (ix2 r (0 : Fin 1))
      = max (Ideal.sqrt (∑ q : Fin 256,
          max (Spec.preCat (fun n j => x0 (ix2 n j)) (fun j k => x2 (ix2 j k)) (fun k c => x3 (ix2 k c))
            (fun n => x1 (ix2 r n)) (fun k => x0 (ix2 r k)) q) (Ideal.ofBits .f32 0x00000000#32)
          * max (Spec.preCat (fun n j => x0 (ix2 n j)) (fun j k => x2 (ix2 j k)) (fun k c => x3 (ix2 k c))
            (fun n => x1 (ix2 r n)) (fun k => x0 (ix2 r k)) q) (Ideal.ofBits .f32 0x00000000#32)))
        (Ideal.ofBits .f32 0x2B8CBCCC#32) := by
  have e7 : idx_main_v7 (ix2 r (0 : Fin 1)) = ix1 r :=
    funext fun a => Fin.ext (by match a with | ⟨0, _⟩ => rfl)
  have e6 : ∀ q : Fin 256, idx_main_v6 (ix1 r) q = ix2 r q := fun q =>
    funext fun a => Fin.ext (by match a with | ⟨0, _⟩ => rfl | ⟨1, _⟩ => rfl)
  rw [val_main_v10_apply, val_main_v8_apply, val_main_v7_apply, val_main_v9_apply, val_main_cst_0_apply, e7,
    val_main_v6_apply, val_main_cst_apply]
  simp only [e6, val_main_v5_apply, v4_at]
  show max (Ideal.sqrt (Ideal.ofBits .f32 0x00000000#32 + _)) _ = _
  rw [zeroWord_add]
  rfl

/-- The reference's result at `(r, c)`: the normalized row of the concatenated form's pre-activations. -/
theorem ref_at (r : Fin 10000) (c : Fin 256) :
    val_main_v12 (F := Ideal) x0 x1 x2 x3 (ix2 r c)
      = Spec.normRow (Spec.preCat (fun n j => x0 (ix2 n j)) (fun j k => x2 (ix2 j k)) (fun k c => x3 (ix2 k c))
          (fun n => x1 (ix2 r n)) (fun k => x0 (ix2 r k))) c := by
  have e11 : idx_main_v11 (ix2 r c) = ix2 r (0 : Fin 1) :=
    funext fun a => Fin.ext (by match a with | ⟨0, _⟩ => rfl | ⟨1, _⟩ => rfl)
  rw [val_main_v12_apply, val_main_v11_apply, e11, v10_at, v4_at]
  rfl

/-- The reference's result is the specification's whole-array function. -/
theorem ref_eq_G : val_main_v12 (F := Ideal) x0 x1 x2 x3 = Spec.G x0 x1 x2 x3 := by
  funext i
  obtain ⟨r, c, rfl⟩ : ∃ (r : Fin 10000) (c : Fin 256), i = ix2 r c := ⟨i 0, i 1, eq_ix2 i⟩
  rw [ref_at]
  exact congrArg (fun pre => Spec.normRow pre c) (funext fun q => Spec.preCat_eq_preSplit _ _ _ _ _ q)

end Cert.ReferenceIdeal.RefValue

end
-- ==== Proof.lean ====
/- The proof of `Cert.Claim`: the three frames, the (empty) idealization ledger, and the equality of the two
   idealized programs' results as extended reals.

   The kernel computes, one block of 400 rows at a time, the rows of
     out = x / max(sqrt(sum_j x_j^2), eps),   x = max(((sup · feat) · agg_wei) · cat_wei[0:256] + feat · cat_wei[256:512], 0),
   and the reference the same with the two products against the halves of cat_wei written as ONE product of the
   row-wise concatenation [ (sup · feat) · agg_wei | feat ] with cat_wei. A sum over 512 terms is the sum over its first 256
   plus the sum over its last 256: the only law between the two sides, and it holds on the extended reals with no
   finiteness, so the precondition is never opened.

   Both runs are stated with the same whole-array function `Spec.G` of the argument arrays (Proof/Spec.lean):
   the kernel's result array is `G` block by block (Proof/Blocks.lean, over the payload read at an index in
   Proof/PayValue.lean and the two control cases of the body in Proof/Cases.lean, Proof/Carried.lean), the reference's
   result is `G` stage by stage (Proof/RefValue.lean). -/
import proofs.«145825_g76141180224220_cont_sun_c4_842_3_alg».proof.Defs
import proofs.«145825_g76141180224220_cont_sun_c4_842_3_alg».proof.Proof.Gen.Kernel
import proofs.«145825_g76141180224220_cont_sun_c4_842_3_alg».proof.Proof.Gen.Kernel.Skeleton
import proofs.«145825_g76141180224220_cont_sun_c4_842_3_alg».proof.Proof.Gen.Kernel.Launch
import proofs.«145825_g76141180224220_cont_sun_c4_842_3_alg».proof.Proof.Gen.Kernel.Points
import proofs.«145825_g76141180224220_cont_sun_c4_842_3_alg».proof.Proof.Gen.Kernel.Frame
import proofs.«145825_g76141180224220_cont_sun_c4_842_3_alg».proof.Proof.Gen.KernelIdeal
import proofs.«145825_g76141180224220_cont_sun_c4_842_3_alg».proof.Proof.Gen.KernelIdeal.Skeleton
import proofs.«145825_g76141180224220_cont_sun_c4_842_3_alg».proof.Proof.Gen.KernelIdeal.Launch
import proofs.«145825_g76141180224220_cont_sun_c4_842_3_alg».proof.Proof.Gen.KernelIdeal.Points
import proofs.«145825_g76141180224220_cont_sun_c4_842_3_alg».proof.Proof.Gen.KernelIdeal.Frame
import proofs.«145825_g76141180224220_cont_sun_c4_842_3_alg».proof.Proof.Gen.KernelIdeal.Value
import proofs.«145825_g76141180224220_cont_sun_c4_842_3_alg».proof.Proof.Gen.ReferenceIdeal
import proofs.«145825_g76141180224220_cont_sun_c4_842_3_alg».proof.Proof.Gen.ReferenceIdeal.Run
import proofs.«145825_g76141180224220_cont_sun_c4_842_3_alg».proof.Proof.Gen.ReferenceIdeal.Read
import proofs.«145825_g76141180224220_cont_sun_c4_842_3_alg».proof.Proof.Gen.Pre_finite_inputs
import proofs.«145825_g76141180224220_cont_sun_c4_842_3_alg».proof.Proof.Blocks
import proofs.«145825_g76141180224220_cont_sun_c4_842_3_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals the kernel's result array ends at `G` of its arguments and the reference's result at `G` of
    arguments that agree with them. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_eq_G,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
